-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S128x1024 : Shape := ⟨2, ![128, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_

variable [Facts]

def fn {F : FTy → Type} [FloatOps F] (main_arg0 : FVec F S8192x1024 .f32) (main_arg1 : FVec F S8192x1024 .f32) (main_arg2 : FVec F S128x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  main_v13
-- ==== Kernel.lean ====
abbrev S8192x1024 : Shape := ⟨2, ![8192, 1024]⟩
abbrev S128x1024 : Shape := ⟨2, ![128, 1024]⟩
abbrev S8192x128 : Shape := ⟨2, ![8192, 128]⟩
abbrev S1024x1024 : Shape := ⟨2, ![1024, 1024]⟩
abbrev S1024x128 : Shape := ⟨2, ![1024, 128]⟩
abbrev S128x8192 : Shape := ⟨2, ![128, 8192]⟩
abbrev S8192x8192 : Shape := ⟨2, ![8192, 8192]⟩
abbrev S1024 : Shape := ⟨1, ![1024]⟩
abbrev S1024x1 : Shape := ⟨2, ![1024, 1]⟩
abbrev S1x1024 : Shape := ⟨2, ![1, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S128x1024, .f32⟩
  | .hbm, ⟨3, _⟩ => ⟨S8192x128, .bf16⟩
  | .hbm, ⟨4, _⟩ => ⟨S128x8192, .bf16⟩
  | .hbm, ⟨5, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S128x1024, .f32⟩
  | .local _ .vmem, ⟨3, _⟩ => ⟨S1024x128, .bf16⟩
  | .local _ .vmem, ⟨4, _⟩ => ⟨S1024x128, .bf16⟩
  | .local _ .vmem, ⟨5, _⟩ => ⟨S1024x1024, .f32⟩
  | .local _ .vmem, ⟨6, _⟩ => ⟨S1024x1024, .f32⟩
  | .local _ .vmem, ⟨7, _⟩ => ⟨S128x1024, .f32⟩
  | .local _ .vmem, ⟨8, _⟩ => ⟨S128x1024, .bf16⟩
  | .local _ .vmem, ⟨9, _⟩ => ⟨S128x1024, .bf16⟩
  | .local _ .vmem, ⟨10, _⟩ => ⟨S8192x128, .bf16⟩
  | .local _ .vmem, ⟨11, _⟩ => ⟨S128x8192, .bf16⟩
  | .local _ .vmem, ⟨12, _⟩ => ⟨S1024x1024, .f32⟩
  | .local _ .vmem, ⟨13, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def k2_mult1 (i : grid2.Coords) : BitVec 32 :=
  let arg0 : BitVec 32 := BitVec.ofNat 32 (i 0).val
  let c1024_i32 : BitVec 32 := 1024#32
  let v0 : BitVec 32 := Scalar.muli arg0 c1024_i32
  v0
def k2_mult2 (i : grid2.Coords) : BitVec 32 :=
  let arg1 : BitVec 32 := BitVec.ofNat 32 (i 1).val
  let c1024_i32_0 : BitVec 32 := 1024#32
  let v2 : BitVec 32 := Scalar.muli arg1 c1024_i32_0
  v2
def k2_off1 (i : grid2.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let v4 : Index := Scalar.indexCast v1
  let c0 : Index := 0#32
  ![v4.toNat, 0]
def k2_off2 (i : grid2.Coords) : Fin 2 → Nat :=
  let c0_1 : Index := 0#32
  let arg1 : BitVec 32 := BitVec.ofNat 32 (i 1).val
  let c1024_i32_0 : BitVec 32 := 1024#32
  let v2 : BitVec 32 := Scalar.muli arg1 c1024_i32_0
  let v3 : BitVec 32 := v2
  let v7 : Index := Scalar.indexCast v3
  ![0, v7.toNat]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S8192x128 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S128x8192 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  packedbf16_S128x1024_S128x1024_0_0 : (Rect.unit (s := S128x1024) ![0, 0] S128x1024.size inb_S128x1024_S128x1024_0_0).PackedRows (EltTy.packing .bf16)
  shapeCasts_S1024x128_S1024x128 : S1024x128.ShapeCasts S1024x128
  shapeCasts_S128x1024_S128x1024 : S128x1024.ShapeCasts S128x1024
  reduces_S1024x128_S1024 : S1024x128.Reduces [1] S1024
  shapeCasts_S1024_S1024x1 : S1024.ShapeCasts S1024x1
  reduces_S128x1024_S1024 : S128x1024.Reduces [0] S1024
  shapeCasts_S1024_S1x1024 : S1024.ShapeCasts S1x1024
  broadcasts_S1024x1_S1024x1024 : S1024x1.Broadcasts S1024x1024
  broadcasts_S1x1024_S1024x1024 : S1x1024.Broadcasts S1024x1024
  dot_S1024x1024_S128x1024_S1024x128_1_1_0_0_n_n_wf : DotDims.WF S1024x1024 S128x1024 S1024x128 [1] [1] [0] [0] [] []
  dot_S128x1024_S1024x1024_S128x1024_1_1_0_0_n_n_wf : DotDims.WF S128x1024 S1024x1024 S128x1024 [1] [1] [0] [0] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .bf16 = 32 ∨ (Rect.block (s := S8192x128) S1024x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S128x1024.size a
  hwx1_1 : ∀ i : grid1.Coords, EltTy.bits .f32 = 32 ∨ (Rect.block (s := S128x1024) S128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S128x8192.size a
  hwx1_2 : ∀ i : grid1.Coords, EltTy.bits .bf16 = 32 ∨ (Rect.block (s := S128x8192) S128x1024.size (cc1_transform_2 i) (hinb1_2 i)).WholeWords (EltTy.packing .bf16)
  hrank2 : 0 < grid2.rank
  k2_mult1_dvd : ∀ i : grid2.Coords, 16 ∣ (k2_mult1 i).toNat
  k2_mult2_dvd : ∀ i : grid2.Coords, 128 ∣ (k2_mult2 i).toNat
  k2_off1_inb : ∀ i : grid2.Coords, ∀ a, (k2_off1 i) a + S1024x128.size a ≤ S8192x128.size a
  k2_off2_inb : ∀ i : grid2.Coords, ∀ a, (k2_off2 i) a + S128x1024.size a ≤ S128x8192.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S8192x128.size a
  hwx2_0 : ∀ i : grid2.Coords, EltTy.bits .bf16 = 32 ∨ (Rect.block (s := S8192x128) S8192x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x8192.size a ≤ S128x8192.size a
  hwx2_1 : ∀ i : grid2.Coords, EltTy.bits .bf16 = 32 ∨ (Rect.block (s := S128x8192) S128x8192.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x8192.size a
  hwx2_2 : ∀ i : grid2.Coords, EltTy.bits .f32 = 32 ∨ (Rect.block (s := S8192x8192) S1024x1024.size (cc2_transform_2 i) (hinb2_2 i)).WholeWords (EltTy.packing .f32)

variable [Facts₀]

def dot_S1024x1024_S128x1024_S1024x128_1_1_0_0_n_n : DotDims S1024x1024 S128x1024 S1024x128 where
  lhsContracting := [1]
  rhsContracting := [1]
  lhsNonContracting := [0]
  rhsNonContracting := [0]
  lhsBatch := []
  rhsBatch := []
  wf := dot_S1024x1024_S128x1024_S1024x128_1_1_0_0_n_n_wf
def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S8192x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v1) S128x8192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x1024 : Shape := ⟨2, ![8192, 1024]⟩
abbrev S128x1024 : Shape := ⟨2, ![128, 1024]⟩
abbrev S1024x128 : Shape := ⟨2, ![1024, 128]⟩
abbrev S8192x128 : Shape := ⟨2, ![8192, 128]⟩
abbrev S_ : Shape := ⟨0, ![]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S128x1024, .f32⟩
  | .hbm, ⟨3, _⟩ => ⟨S1024x128, .f32⟩
  | .hbm, ⟨4, _⟩ => ⟨S8192x128, .f32⟩
  | .hbm, ⟨5, _⟩ => ⟨S1024x128, .f32⟩
  | .hbm, ⟨6, _⟩ => ⟨S8192x128, .f32⟩
  | .hbm, ⟨7, _⟩ => ⟨S8192x128, .f32⟩
  | .hbm, ⟨8, _⟩ => ⟨S_, .f32⟩
  | .hbm, ⟨9, _⟩ => ⟨S8192, .f32⟩
  | .hbm, ⟨10, _⟩ => ⟨S8192x128, .f32⟩
  | .hbm, ⟨11, _⟩ => ⟨S_, .f32⟩
  | .hbm, ⟨12, _⟩ => ⟨S8192, .f32⟩
  | .hbm, ⟨13, _⟩ => ⟨S128x8192, .f32⟩
  | .hbm, ⟨14, _⟩ => ⟨S8192x8192, .f32⟩
  | .hbm, ⟨15, _⟩ => ⟨S8192x1, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  transposes_S128x1024_S1024x128_1_0 : S128x1024.Transposes [1, 0] S1024x128
  reducesTo_S8192x128_S8192_d1 : S8192x128.ReducesTo [1] S8192
  h_S_ : 0 < S_.numel
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x1024_S1024x128_S8192x128_1_0_0_1_n_n_wf : DotDims.WF S8192x1024 S1024x128 S8192x128 [1] [0] [0] [1] [] []
  dot_S8192x128_S128x8192_S8192x8192_1_0_0_1_n_n_wf : DotDims.WF S8192x128 S128x8192 S8192x8192 [1] [0] [0] [1] [] []

variable [Facts₀]

def dot_S8192x1024_S1024x128_S8192x128_1_0_0_1_n_n : DotDims S8192x1024 S1024x128 S8192x128 where
  lhsContracting := [1]
  rhsContracting := [0]
  lhsNonContracting := [0]
  rhsNonContracting := [1]
  lhsBatch := []
  rhsBatch := []
  wf := dot_S8192x1024_S1024x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KernelRun.lean ====
/-
  The idealized kernel's run, with its result array named.

  The program is three pipelined regions in a row: the rows of `x` projected on the rows of `L`, the rows of `y`
  projected likewise (stored transposed), and the clamped squared distances between the two sets of projected
  points. Every weakly fair execution ends with the result buffer holding what the third region's write-backs leave
  in it, the blocks of the last pipeline's output array folded over its grid; the three arguments are unchanged.
-/
import proofs.«125883_j3058016715342_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the contents the last
    boundary of the run assigns it, and the arguments end as launched. -/
theorem run_boundary : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

/-- The same run with the result named as the last region's output array after all of its grid points. -/
theorem run_arr : θ_run defs (onTc (τ := τ) (main (F := F))) ⟨m, fun _ => 0, ρ⟩ (fun r => ∀ c : Dev nD,
      r.2.mem ((c.tc : Thread nD τ).loc main_v2) = (dat2 (V2 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (W3_arr m ρ c 2), (h c).2⟩) (run_boundary m ρ)

end Cert.KernelIdeal.RunValue

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.Payloads.lean ====
/-
  The three kernel bodies' arithmetic, read at an entry, on the extended reals.

  Each body stores one value computed from the blocks it loads:
  * the first, for a block of 1024 rows of `x` and all of `L`, the matrix of inner products of rows with rows:
    entry (p, r) is Σ_k x[p,k] · L[r,k] (a product contracted over the second axis of both operands, accumulated
    into zero; the roundings to a narrower format are identities here);
  * the second, for a block of 1024 rows of `y`, the same matrix transposed: entry (r, q) is Σ_k L[r,k] · y[q,k];
  * the third, for 1024 projected rows `u` and 1024 projected columns `w`: entry (p, q) is
    max ((Σ_r u[p,r]² + Σ_r w[r,q]²) − 2 · Σ_r u[p,r] · w[r,q]) 0 — the row sums kept as a column and spread along
    the rows, the column sums kept as a row and spread down the columns, a plain matrix product for the cross term.
-/
import proofs.«125883_j3058016715342_2_alg».proof.Proof.Gen.KernelIdeal.Skeleton
import proofs.«125883_j3058016715342_2_alg».proof.Proof.LibPlainMatmul
import proofs.«125883_j3058016715342_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-! ## The two projections: a product of rows with rows -/

/-- Rows of a [1024, 1024] block against rows of a [128, 1024] matrix, into zero: entry (p, r) is the inner product
    of row `p` and row `r`. The contraction's one-axis index is its coordinate `k`; the left operand is read at
    (p, k), the right one at (r, k). -/
theorem matmul_rows_apply (lhs : FVec Ideal S1024x1024 .bf16) (rhs : FVec Ideal S128x1024 .bf16) (p : Fin 1024) (r : Fin 128) :
    FloatOps.matmul dot_S1024x1024_S128x1024_S1024x128_1_1_0_0_n_n none lhs rhs (constant S1024x128 .f32 0x00000000#32) (ix2 p r)
      = ∑ k : Fin 1024, lhs (ix2 p k) * rhs (ix2 r k) := by
  rw [Ideal.matmul_constant_zero_apply, ← Equiv.sum_comp (contrEquiv1 dot_S1024x1024_S128x1024_S1024x128_1_1_0_0_n_n 1024 rfl rfl).symm]
  refine Finset.sum_congr rfl fun k _ => ?_
  have hk := contrEquiv1_symm_val dot_S1024x1024_S128x1024_S1024x128_1_1_0_0_n_n 1024 rfl rfl k
  have el : dot_S1024x1024_S128x1024_S1024x128_1_1_0_0_n_n.lhsIdx (ix2 p r) ((contrEquiv1 dot_S1024x1024_S128x1024_S1024x128_1_1_0_0_n_n 1024 rfl rfl).symm k) = ix2 p k :=
    funext fun a => Fin.ext (by
      match a with
      | ⟨0, _⟩ => rfl
      | ⟨1, _⟩ => exact (dot_S1024x1024_S128x1024_S1024x128_1_1_0_0_n_n.lhsIdx_val_of_single rfl _ _).trans hk)
  have er : dot_S1024x1024_S128x1024_S1024x128_1_1_0_0_n_n.rhsIdx (ix2 p r) ((contrEquiv1 dot_S1024x1024_S128x1024_S1024x128_1_1_0_0_n_n 1024 rfl rfl).symm k) = ix2 r k :=
    funext fun a => Fin.ext (by
      match a with
      | ⟨0, _⟩ => rfl
      | ⟨1, _⟩ => exact (dot_S1024x1024_S128x1024_S1024x128_1_1_0_0_n_n.rhsIdx_val_of_single rfl _ _).trans hk)
  rw [el, er]

/-- Rows of the [128, 1024] matrix against rows of a [1024, 1024] block, into zero: entry (r, q) is the inner
    product of row `r` of the first and row `q` of the second. -/
theorem matmul_cols_apply (lhs : FVec Ideal S128x1024 .bf16) (rhs : FVec Ideal S1024x1024 .bf16) (r : Fin 128) (q : Fin 1024) :
    FloatOps.matmul dot_S128x1024_S1024x1024_S128x1024_1_1_0_0_n_n none lhs rhs (constant S128x1024 .f32 0x00000000#32) (ix2 r q)
      = ∑ k : Fin 1024, lhs (ix2 r k) * rhs (ix2 q k) := by
  rw [Ideal.matmul_constant_zero_apply, ← Equiv.sum_comp (contrEquiv1 dot_S128x1024_S1024x1024_S128x1024_1_1_0_0_n_n 1024 rfl rfl).symm]
  refine Finset.sum_congr rfl fun k _ => ?_
  have hk := contrEquiv1_symm_val dot_S128x1024_S1024x1024_S128x1024_1_1_0_0_n_n 1024 rfl rfl k
  have el : dot_S128x1024_S1024x1024_S128x1024_1_1_0_0_n_n.lhsIdx (ix2 r q) ((contrEquiv1 dot_S128x1024_S1024x1024_S128x1024_1_1_0_0_n_n 1024 rfl rfl).symm k) = ix2 r k :=
    funext fun a => Fin.ext (by
      match a with
      | ⟨0, _⟩ => rfl
      | ⟨1, _⟩ => exact (dot_S128x1024_S1024x1024_S128x1024_1_1_0_0_n_n.lhsIdx_val_of_single rfl _ _).trans hk)
  have er : dot_S128x1024_S1024x1024_S128x1024_1_1_0_0_n_n.rhsIdx (ix2 r q) ((contrEquiv1 dot_S128x1024_S1024x1024_S128x1024_1_1_0_0_n_n 1024 rfl rfl).symm k) = ix2 q k :=
    funext fun a => Fin.ext (by
      match a with
      | ⟨0, _⟩ => rfl
      | ⟨1, _⟩ => exact (dot_S128x1024_S1024x1024_S128x1024_1_1_0_0_n_n.rhsIdx_val_of_single rfl _ _).trans hk)
  rw [el, er]

/-- The first body's stored value at (p, r): the inner product of row `p` of the `x` block and row `r` of `L`. -/
theorem pay0_apply (v0 : Vec Ideal S1024x1024 .f32) (v2 : Vec Ideal S128x1024 .f32) (p : Fin 1024) (r : Fin 128) :
    k0_pay1 (F := Ideal) v0 v2 (ix2 p r) = ∑ k : Fin 1024, v0 (ix2 p k) * v2 (ix2 r k) := by
  unfold k0_pay1
  exact matmul_rows_apply _ _ p r

/-- The second body's stored value at (r, q): the inner product of row `r` of `L` and row `q` of the `y` block. -/
theorem pay1_apply (v0 : Vec Ideal S1024x1024 .f32) (v2 : Vec Ideal S128x1024 .f32) (r : Fin 128) (q : Fin 1024) :
    k1_pay1 (F := Ideal) v0 v2 (ix2 r q) = ∑ k : Fin 1024, v2 (ix2 r k) * v0 (ix2 q k) := by
  unfold k1_pay1
  exact matmul_cols_apply _ _ r q

/-! ## The distance body -/

/-- The squared norms of the projected rows, kept as a column and spread along each row: at (p, q) the sum over the
    128 directions of the squares of row `p`, whatever `q`. -/
theorem rowNorms_apply (u : FVec Ideal S1024x128 .bf16) (p q : Fin 1024) :
    broadcastTo S1024x1024
        (shapeCast S1024x1
          (multiReduction .add [1] S1024 (mulf (extf .f32 u bitsLt_bf16_f32) (extf .f32 u bitsLt_bf16_f32)) 0x00000000#32
            reduces_S1024x128_S1024 (.inl rfl) rfl)
          shapeCasts_S1024_S1024x1)
        broadcasts_S1024x1_S1024x1024 (ix2 p q)
      = ∑ r : Fin 128, u (ix2 p r) * u (ix2 p r) :=
  Cert.LibKeepdims.rowSum_keepdims_broadcast_apply (a := 1024) (b := 128) (c := 1024)
    (mulf (extf .f32 u bitsLt_bf16_f32) (extf .f32 u bitsLt_bf16_f32)) 0x00000000#32
    reduces_S1024x128_S1024 (.inl rfl) rfl shapeCasts_S1024_S1024x1 broadcasts_S1024x1_S1024x1024 p q

/-- The squared norms of the projected columns, kept as a row and spread down each column: at (p, q) the sum over
    the 128 directions of the squares of column `q`, whatever `p`. -/
theorem colNorms_apply (w : FVec Ideal S128x1024 .bf16) (p q : Fin 1024) :
    broadcastTo S1024x1024
        (shapeCast S1x1024
          (multiReduction .add [0] S1024 (mulf (extf .f32 w bitsLt_bf16_f32) (extf .f32 w bitsLt_bf16_f32)) 0x00000000#32
            reduces_S128x1024_S1024 (.inl rfl) rfl)
          shapeCasts_S1024_S1x1024)
        broadcasts_S1x1024_S1024x1024 (ix2 p q)
      = ∑ r : Fin 128, w (ix2 r q) * w (ix2 r q) := by
  refine (broadcastTo_1b_ab_apply (a := 1024) (b := 1024) _ broadcasts_S1x1024_S1024x1024 p q).trans ?_
  refine (shapeCast_a_1a_apply (a := 1024) _ shapeCasts_S1024_S1x1024 0 q).trans ?_
  refine (Ideal.multiReduction_add_single (mulf (extf .f32 w bitsLt_bf16_f32) (extf .f32 w bitsLt_bf16_f32)) 0x00000000#32
    reduces_S128x1024_S1024 (.inl rfl) rfl (ix1 q)).trans ?_
  refine Finset.sum_congr rfl fun r _ => ?_
  have e : reduces_S128x1024_S1024.lift (ix1 q) r = ix2 r q :=
    funext fun d => Fin.ext (by
      match d with
      | ⟨0, _⟩ => rfl
      | ⟨1, _⟩ => rfl)
  rw [e]
  rfl

/-- The cross term: a plain [1024, 128] × [128, 1024] product into zero, entry (p, q) the inner product of projected
    row `p` and projected column `q`. -/
theorem cross_apply (u : FVec Ideal S1024x128 .bf16) (w : FVec Ideal S128x1024 .bf16) (p q : Fin 1024) :
    FloatOps.matmul dot_S1024x128_S128x1024_S1024x1024_1_0_0_1_n_n none u w (constant S1024x1024 .f32 0x00000000#32) (ix2 p q)
      = ∑ r : Fin 128, u (ix2 p r) * w (ix2 r q) :=
  matmul_plain_zero_apply (M := 1024) (K := 128) (N := 1024) dot_S1024x128_S128x1024_S1024x1024_1_0_0_1_n_n rfl none u w p q

/-- The casts of a loaded block to its own shape are identities. -/
theorem pay2_eq (v5 : FVec Ideal S1024x128 .bf16) (v8 : FVec Ideal S128x1024 .bf16) :
    k2_pay1 (F := Ideal) v5 v8
      = maximumf
          (subf
            (addf
              (broadcastTo S1024x1024
                (shapeCast S1024x1
                  (multiReduction .add [1] S1024 (mulf (extf .f32 v5 bitsLt_bf16_f32) (extf .f32 v5 bitsLt_bf16_f32)) 0x00000000#32
                    reduces_S1024x128_S1024 (.inl rfl) rfl)
                  shapeCasts_S1024_S1024x1)
                broadcasts_S1024x1_S1024x1024)
              (broadcastTo S1024x1024
                (shapeCast S1x1024
                  (multiReduction .add [0] S1024 (mulf (extf .f32 v8 bitsLt_bf16_f32) (extf .f32 v8 bitsLt_bf16_f32)) 0x00000000#32
                    reduces_S128x1024_S1024 (.inl rfl) rfl)
                  shapeCasts_S1024_S1x1024)
                broadcasts_S1x1024_S1024x1024))
            (mulf (broadcast S1024x1024 (Scalar.ofBits (F := Ideal) .f32 0x40000000#32))
              (matmul dot_S1024x128_S128x1024_S1024x1024_1_0_0_1_n_n none v5 v8 (constant S1024x1024 .f32 0x00000000#32))))
          (broadcast S1024x1024 (Scalar.ofBits (F := Ideal) .f32 0x00000000#32)) := by
  unfold k2_pay1
  simp only [shapeCast_self]

/-- The third body's stored value at (p, q): the clamped Gram expansion over the 128 directions. -/
theorem pay2_apply (v5 : FVec Ideal S1024x128 .bf16) (v8 : FVec Ideal S128x1024 .bf16) (p q : Fin 1024) :
    k2_pay1 (F := Ideal) v5 v8 (ix2 p q)
      = max (((∑ r : Fin 128, v5 (ix2 p r) * v5 (ix2 p r)) + ∑ r : Fin 128, v8 (ix2 r q) * v8 (ix2 r q))
              - Ideal.ofBits .f32 0x40000000#32 * ∑ r : Fin 128, v5 (ix2 p r) * v8 (ix2 r q))
          (Ideal.ofBits .f32 0x00000000#32) := by
  rw [pay2_eq]
  refine (maximumf_apply _ _ _).trans (congrArg₂ max ?_ rfl)
  refine (subf_apply _ _ _).trans (congrArg₂ (· - ·) ?_ ?_)
  · refine (addf_apply _ _ _).trans (congrArg₂ (· + ·) ?_ ?_)
    · exact rowNorms_apply v5 p q
    · exact colNorms_apply v8 p q
  · refine (mulf_apply _ _ _).trans (congrArg₂ (· * ·) rfl ?_)
    exact cross_apply v5 v8 p q

end Cert.KernelIdeal.Payloads

end
-- ==== Proof.Spec.lean ====
/-
  What the program computes, stated once.

  For points `x p` and `y q` (rows of two [8192, 1024] arrays) and 128 directions `L r` (rows of a [128, 1024]
  array) the result at `(p, q)` is the squared distance between the two projected points, clamped at zero and
  computed by the Gram expansion

      max ((Σ_r a_r² + Σ_r b_r²) − 2 · Σ_r a_r · b_r) 0,   a_r = Σ_k x[p,k] · L[r,k],   b_r = Σ_k L[r,k] · y[q,k],

  on the extended reals. The two projections are inner products over the 1024 features; `b` is written with the
  direction first because one side of the comparison computes the projected `y` already transposed. The constants
  `2` and `0` stay the words the programs print: both sides carry the same words, so they are never evaluated.
-/
import Idealize.ShloMosaic.Lib.ValueIdx
import Idealize.ShloMosaic.PureOps.Ideal.Laws

noncomputable section

open scoped BigOperators

namespace Cert.DistSpec

open Idealize.ShloMosaic Idealize.ShloMosaic.ValueIdx

/-- Point `p` of `x` projected on direction `r`: the inner product of row `p` of `x` and row `r` of `L`. -/
def projRow (x : (⟨2, ![8192, 1024]⟩ : Shape).Idx → EReal) (L : (⟨2, ![128, 1024]⟩ : Shape).Idx → EReal)
    (p : Fin 8192) (r : Fin 128) : EReal :=
  ∑ k : Fin 1024, x (ix2 p k) * L (ix2 r k)

/-- Direction `r` against point `q` of `y`: the same inner product with the direction as the left factor. -/
def projCol (y : (⟨2, ![8192, 1024]⟩ : Shape).Idx → EReal) (L : (⟨2, ![128, 1024]⟩ : Shape).Idx → EReal)
    (r : Fin 128) (q : Fin 8192) : EReal :=
  ∑ k : Fin 1024, L (ix2 r k) * y (ix2 q k)

/-- The transposed projection is the projection: multiplication of extended reals commutes, term by term. -/
theorem projCol_eq_projRow (y : (⟨2, ![8192, 1024]⟩ : Shape).Idx → EReal) (L : (⟨2, ![128, 1024]⟩ : Shape).Idx → EReal)
    (r : Fin 128) (q : Fin 8192) : projCol y L r q = projRow y L q r :=
  Finset.sum_congr rfl fun _ _ => mul_comm _ _

/-- The clamped Gram expansion for a table `A` of projected rows (point, direction) and a table `B` of projected
    columns (direction, point), over any numbers of points: squared norms added, twice the cross term subtracted,
    the maximum with zero taken, in that order of operations. -/
def clampedGram {P Q : ℕ} (A : Fin P → Fin 128 → EReal) (B : Fin 128 → Fin Q → EReal) (p : Fin P) (q : Fin Q) : EReal :=
  max (((∑ r : Fin 128, A p r * A p r) + ∑ r : Fin 128, B r q * B r q)
        - Ideal.ofBits .f32 0x40000000#32 * ∑ r : Fin 128, A p r * B r q)
    (Ideal.ofBits .f32 0x00000000#32)

/-- The whole [8192, 8192] result as one function of the three arguments. -/
def result (x y : (⟨2, ![8192, 1024]⟩ : Shape).Idx → EReal) (L : (⟨2, ![128, 1024]⟩ : Shape).Idx → EReal) :
    (⟨2, ![8192, 8192]⟩ : Shape).Idx → EReal :=
  fun i => clampedGram (projRow x L) (projCol y L) (i 0) (i 1)

/-- The result at (p, q), with both projections written point first: the squared norm of projected `x p`, plus that of
    projected `y q`, minus twice their inner product, clamped at zero. -/
theorem result_apply (x y : (⟨2, ![8192, 1024]⟩ : Shape).Idx → EReal) (L : (⟨2, ![128, 1024]⟩ : Shape).Idx → EReal) (p q : Fin 8192) :
    result x y L (ix2 p q)
      = max (((∑ r : Fin 128, projRow x L p r * projRow x L p r) + ∑ r : Fin 128, projRow y L q r * projRow y L q r)
              - Ideal.ofBits .f32 0x40000000#32 * ∑ r : Fin 128, projRow x L p r * projRow y L q r)
          (Ideal.ofBits .f32 0x00000000#32) := by
  show clampedGram (projRow x L) (projCol y L) p q = _
  unfold clampedGram
  simp only [projCol_eq_projRow]

end Cert.DistSpec

end
-- ==== Proof.Region0.lean ====
/-
  The first region: the rows of `x` projected on the rows of `L`.

  The grid has 8 points; point `t` loads rows 1024·t … 1024·t + 1023 of `x` and all of `L`, and writes back the
  [1024, 128] block of inner products as rows 1024·t … of the [8192, 128] output. A block's row `p` is row
  1024·t + p of the array, so what point `t` writes back is block `t` of ONE function of the whole arrays — entry
  (P, r) is row `P` of `x` against row `r` of `L` — and the 8 blocks tile the output: after the region the output
  array is that function, whatever the contents the region was entered with.
-/
import proofs.«125883_j3058016715342_2_alg».proof.Proof.Gen.KernelIdeal.Frame
import proofs.«125883_j3058016715342_2_alg».proof.Proof.Payloads
import proofs.«125883_j3058016715342_2_alg».proof.Proof.Spec
import Idealize.ShloMosaic.Lib.Pipeline.Value

set_option maxRecDepth 16384

noncomputable section

open scoped BigOperators

namespace Cert.KernelIdeal.Region0

open Cert.KernelIdeal Cert.KernelIdeal.Gen Cert.KernelIdeal.Payloads Cert.DistSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The projected rows of `x` as an [8192, 128] array, from the contents the region finds in `x` and `L`. -/
def rows (c : Dev nD) : S8192x128.Idx → Elt Ideal .bf16 :=
  fun i => projRow (V c main_arg0) (V c main_arg2) (i 0) (i 1)

/-- One block's payload at an entry, when the loaded blocks are the arrays read at the matching rows. -/
theorem block_eq (X : S8192x1024.Idx → Elt Ideal .f32) (Lm : S128x1024.Idx → Elt Ideal .f32)
    (xb : Vec Ideal S1024x1024 .f32) (lb : Vec Ideal S128x1024 .f32) (j : S1024x128.Idx) (i : S8192x128.Idx)
    (hx : ∀ k : Fin 1024, xb (ix2 (j 0) k) = X (ix2 (i 0) k))
    (hl : ∀ k : Fin 1024, lb (ix2 (j 1) k) = Lm (ix2 (i 1) k)) :
    k0_pay1 (F := Ideal) xb lb j = projRow X Lm (i 0) (i 1) := by
  refine ((congrArg (k0_pay1 (F := Ideal) xb lb) (eq_ix2 j)).trans (pay0_apply xb lb (j 0) (j 1))).trans ?_
  exact Finset.sum_congr rfl fun k _ => by rw [hx k, hl k]

/-- The printed index maps over the 8 points: the `x` window and the output window move together down the rows,
    the `L` window stays, and no window moves along its second axis. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every row block of the output is some point's. -/
theorem idx_onto : ∀ q0 : Fin 8, ∃ t : Fin cfg0.N, win0_2.index t = ![q0.val, 0] :=
  (by decide +kernel : ∀ q0 : Fin 8, ∃ t : Fin grid0.N, win0_2.index t = ![q0.val, 0])

/-- What point `t` writes back is block `t` of the projected rows. -/
theorem flushed_eq (c : Dev nD) (t : Fin cfg0.N) :
    (dat0 V c).flushed 2 t = ((cfg0.win 2).blk t).view.read (Elt Ideal) (rows V c) := by
  show (cfg0.win 2).cut (grid0.coords t) ((dat0 V c).after 2 t) = _
  rw [after0_2]
  unfold out0_2
  rw [View.canon_unit_zero hz]
  simp only [View.ld_unit_zero (S := S1024x1024) hz, View.ld_unit_zero (S := S128x1024) hz]
  obtain ⟨e0, e1, e2, e3, e4, e5⟩ := idx_facts t
  funext j
  show k0_pay1 (F := Ideal) (iblk0 V c 0 t) (iblk0 V c 1 t) j
    = projRow (V c main_arg0) (V c main_arg2) ((((cfg0.win 2).blk t).view.emb j) 0) ((((cfg0.win 2).blk t).view.emb j) 1)
  refine block_eq (V c main_arg0) (V c main_arg2) (iblk0 V c 0 t) (iblk0 V c 1 t) j (((cfg0.win 2).blk t).view.emb j)
    (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ =>
      show win0_0.index t (0 : Fin 2) * 1024 + 1 * (j 0).val = win0_2.index t (0 : Fin 2) * 1024 + 1 * (j 0).val
      omega
    | ⟨1, _⟩ =>
      show win0_0.index t (1 : Fin 2) * 1024 + 1 * k.val = k.val
      omega
  · show V c main_arg2 (((cfg0.win 1).blk t).view.emb (ix2 (j 1) k)) = V c main_arg2 (ix2 ((((cfg0.win 2).blk t).view.emb j) 1) k)
    refine congrArg (V c main_arg2) (funext fun a => Fin.ext ?_)
    match a with
    | ⟨0, _⟩ =>
      show win0_1.index t (0 : Fin 2) * 128 + 1 * (j 1).val = win0_2.index t (1 : Fin 2) * 128 + 1 * (j 1).val
      omega
    | ⟨1, _⟩ =>
      show win0_1.index t (1 : Fin 2) * 1024 + 1 * k.val = k.val
      omega

/-- An index of the output is in point `t`'s block iff each coordinate is in the block's range on its axis. -/
theorem mem_blk (t : Fin cfg0.N) (i : S8192x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v0).slice (win0_2.rect t)).set ↔ _
  rw [View.set_slice_whole, Rect.mem_set_unit]
  exact Iff.rfl

/-- The blocks tile the output: row `P` lies in the block of the point whose row index is `P / 1024`. -/
theorem cover (i : S8192x128.Idx) : ∃ t : Fin cfg0.N, (cfg0.win 2).flush t = true ∧ i ∈ ((cfg0.win 2).blk t).view.set := by
  have hi0 : (i 0).val < 8192 := (i 0).isLt
  have hi1 : (i 1).val < 128 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 128 ≤ (i 1).val ∧ (i 1).val < win0_2.index t (1 : Fin 2) * 128 + 128
    omega

/-- After the region its output array holds the projected rows. -/
theorem final (c : Dev nD) : (dat0 V c).arrAt 2 cfg0.N = rows V c :=
  (dat0 V c).arrAt_eq_of_cover 2 (rows V c) (fun t _ => flushed_eq V c t) cover

end Cert.KernelIdeal.Region0

end
-- ==== Proof.Region1.lean ====
/-
  The second region: the rows of `L` against the rows of `y`, the projected `y` stored transposed.

  The grid has 8 points; point `t` loads rows 1024·t … 1024·t + 1023 of `y` and all of `L`, and writes back the
  [128, 1024] block of inner products as columns 1024·t … of the [128, 8192] output. A block's column `q` is column
  1024·t + q of the array, so what point `t` writes back is block `t` of one function of the whole arrays — entry
  (r, Q) is row `r` of `L` against row `Q` of `y` — and the 8 blocks tile the output.
-/
import proofs.«125883_j3058016715342_2_alg».proof.Proof.Gen.KernelIdeal.Frame
import proofs.«125883_j3058016715342_2_alg».proof.Proof.Payloads
import proofs.«125883_j3058016715342_2_alg».proof.Proof.Spec
import Idealize.ShloMosaic.Lib.Pipeline.Value

set_option maxRecDepth 16384

noncomputable section

open scoped BigOperators

namespace Cert.KernelIdeal.Region1

open Cert.KernelIdeal Cert.KernelIdeal.Gen Cert.KernelIdeal.Payloads Cert.DistSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The projected columns as a [128, 8192] array, from the contents the region finds in `y` and `L`. -/
def cols (c : Dev nD) : S128x8192.Idx → Elt Ideal .bf16 :=
  fun i => projCol (V c main_arg1) (V c main_arg2) (i 0) (i 1)

/-- One block's payload at an entry, when the loaded blocks are the arrays read at the matching rows. -/
theorem block_eq (Y : S8192x1024.Idx → Elt Ideal .f32) (Lm : S128x1024.Idx → Elt Ideal .f32)
    (yb : Vec Ideal S1024x1024 .f32) (lb : Vec Ideal S128x1024 .f32) (j : S128x1024.Idx) (i : S128x8192.Idx)
    (hy : ∀ k : Fin 1024, yb (ix2 (j 1) k) = Y (ix2 (i 1) k))
    (hl : ∀ k : Fin 1024, lb (ix2 (j 0) k) = Lm (ix2 (i 0) k)) :
    k1_pay1 (F := Ideal) yb lb j = projCol Y Lm (i 0) (i 1) := by
  refine ((congrArg (k1_pay1 (F := Ideal) yb lb) (eq_ix2 j)).trans (pay1_apply yb lb (j 0) (j 1))).trans ?_
  exact Finset.sum_congr rfl fun k _ => by rw [hl k, hy k]

/-- The printed index maps over the 8 points: the `y` window moves down the rows as the output window moves along
    the columns, the `L` window stays. -/
theorem idx_facts : ∀ t : Fin cfg1.N, win1_0.index t (0 : Fin 2) = win1_2.index t (1 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) ≤ 7 :=
  (by decide +kernel : ∀ t : Fin grid1.N, _)

/-- Every column block of the output is some point's. -/
theorem idx_onto : ∀ q1 : Fin 8, ∃ t : Fin cfg1.N, win1_2.index t = ![0, q1.val] :=
  (by decide +kernel : ∀ q1 : Fin 8, ∃ t : Fin grid1.N, win1_2.index t = ![0, q1.val])

/-- What point `t` writes back is block `t` of the projected columns. -/
theorem flushed_eq (c : Dev nD) (t : Fin cfg1.N) :
    (dat1 V c).flushed 2 t = ((cfg1.win 2).blk t).view.read (Elt Ideal) (cols V c) := by
  show (cfg1.win 2).cut (grid1.coords t) ((dat1 V c).after 2 t) = _
  rw [after1_2]
  unfold out1_2
  rw [View.canon_unit_zero hz]
  simp only [View.ld_unit_zero (S := S1024x1024) hz, View.ld_unit_zero (S := S128x1024) hz]
  obtain ⟨e0, e1, e2, e3, e4, e5⟩ := idx_facts t
  funext j
  show k1_pay1 (F := Ideal) (iblk1 V c 0 t) (iblk1 V c 1 t) j
    = projCol (V c main_arg1) (V c main_arg2) ((((cfg1.win 2).blk t).view.emb j) 0) ((((cfg1.win 2).blk t).view.emb j) 1)
  refine block_eq (V c main_arg1) (V c main_arg2) (iblk1 V c 0 t) (iblk1 V c 1 t) j (((cfg1.win 2).blk t).view.emb j)
    (fun k => ?_) (fun k => ?_)
  · show V c main_arg1 (((cfg1.win 0).blk t).view.emb (ix2 (j 1) k)) = V c main_arg1 (ix2 ((((cfg1.win 2).blk t).view.emb j) 1) k)
    refine congrArg (V c main_arg1) (funext fun a => Fin.ext ?_)
    match a with
    | ⟨0, _⟩ =>
      show win1_0.index t (0 : Fin 2) * 1024 + 1 * (j 1).val = win1_2.index t (1 : Fin 2) * 1024 + 1 * (j 1).val
      omega
    | ⟨1, _⟩ =>
      show win1_0.index t (1 : Fin 2) * 1024 + 1 * k.val = k.val
      omega
  · show V c main_arg2 (((cfg1.win 1).blk t).view.emb (ix2 (j 0) k)) = V c main_arg2 (ix2 ((((cfg1.win 2).blk t).view.emb j) 0) k)
    refine congrArg (V c main_arg2) (funext fun a => Fin.ext ?_)
    match a with
    | ⟨0, _⟩ =>
      show win1_1.index t (0 : Fin 2) * 128 + 1 * (j 0).val = win1_2.index t (0 : Fin 2) * 128 + 1 * (j 0).val
      omega
    | ⟨1, _⟩ =>
      show win1_1.index t (1 : Fin 2) * 1024 + 1 * k.val = k.val
      omega

/-- An index of the output is in point `t`'s block iff each coordinate is in the block's range on its axis. -/
theorem mem_blk (t : Fin cfg1.N) (i : S128x8192.Idx) :
    i ∈ ((cfg1.win 2).blk t).view.set ↔ ∀ a : Fin 2, win1_2.index t a * S128x1024.size a ≤ (i a).val ∧ (i a).val < win1_2.index t a * S128x1024.size a + S128x1024.size a := by
  show i ∈ ((View.whole main_v1).slice (win1_2.rect t)).set ↔ _
  rw [View.set_slice_whole, Rect.mem_set_unit]
  exact Iff.rfl

/-- The blocks tile the output: column `Q` lies in the block of the point whose column index is `Q / 1024`. -/
theorem cover (i : S128x8192.Idx) : ∃ t : Fin cfg1.N, (cfg1.win 2).flush t = true ∧ i ∈ ((cfg1.win 2).blk t).view.set := by
  have hi0 : (i 0).val < 128 := (i 0).isLt
  have hi1 : (i 1).val < 8192 := (i 1).isLt
  obtain ⟨t, ht⟩ := idx_onto ⟨(i 1).val / 1024, by omega⟩
  have q0 : win1_2.index t (0 : Fin 2) = 0 := congrFun ht 0
  have q1 : win1_2.index t (1 : Fin 2) = (i 1).val / 1024 := congrFun ht 1
  refine ⟨t, flush1_2 t, ?_⟩
  rw [mem_blk]
  intro a
  match a with
  | ⟨0, _⟩ =>
    show win1_2.index t (0 : Fin 2) * 128 ≤ (i 0).val ∧ (i 0).val < win1_2.index t (0 : Fin 2) * 128 + 128
    omega
  | ⟨1, _⟩ =>
    show win1_2.index t (1 : Fin 2) * 1024 ≤ (i 1).val ∧ (i 1).val < win1_2.index t (1 : Fin 2) * 1024 + 1024
    omega

/-- After the region its output array holds the projected columns. -/
theorem final (c : Dev nD) : (dat1 V c).arrAt 2 cfg1.N = cols V c :=
  (dat1 V c).arrAt_eq_of_cover 2 (cols V c) (fun t _ => flushed_eq V c t) cover

end Cert.KernelIdeal.Region1

end
-- ==== Proof.Region2.lean ====
/-
  The third region: the clamped squared distances between projected points.

  The grid is 8 × 8; point (i, j) sees the whole [8192, 128] table `A` of projected rows and the whole [128, 8192]
  table `B` of projected columns, loads rows 1024·i … of the first and columns 1024·j … of the second, and writes
  back the [1024, 1024] block of clamped Gram expansions as block (i, j) of the [8192, 8192] output. Row `p` of a
  loaded slice is row 1024·i + p of `A`, column `q` is column 1024·j + q of `B`, and entry (p, q) of the block is
  entry (1024·i + p, 1024·j + q) of the output: what each point writes back is its block of one function of the two
  tables, and the 64 blocks tile the output.
-/
import proofs.«125883_j3058016715342_2_alg».proof.Proof.Gen.KernelIdeal.Frame
import proofs.«125883_j3058016715342_2_alg».proof.Proof.Payloads
import proofs.«125883_j3058016715342_2_alg».proof.Proof.Spec
import Idealize.ShloMosaic.Lib.Pipeline.Value
import Idealize.ShloMosaic.Lib.Tactic

set_option maxRecDepth 16384

noncomputable section

open scoped BigOperators

namespace Cert.KernelIdeal.Region2

open Cert.KernelIdeal Cert.KernelIdeal.Gen Cert.KernelIdeal.Payloads Cert.DistSpec
open Idealize.ShloMosaic Idealize.ShloMosaic.TcCoe Idealize.ShloMosaic.Tactic Idealize.SL.Sem Idealize.ShloMosaic.ValueIdx
open Idealize.ShloMosaic.Pipeline (Dat)

theorem hz : (![0, 0] : Fin 2 → Nat) = fun _ => 0 := funext fun a => by fin_cases a <;> rfl

/-- What the body leaves in the output block: its one store, of the arithmetic of the two loaded slices — rows from
    the point's row offset of the first table, columns from its column offset of the second. -/
theorem out2_eq {F : FTy → Type} [FloatOps F] (c : Dev nD) (i : grid2.Coords)
    (arg2 : Memref sig .tc .vmem S8192x128 .bf16) (harg2 : arg2.IsWhole)
    (arg3 : Memref sig .tc .vmem S128x8192 .bf16) (harg3 : arg3.IsWhole)
    (arg4 : Memref sig .tc .vmem S1024x1024 .f32) (harg4 : arg4.IsWhole)
    (x0 : Vec F S8192x128 .bf16) (x1 : Vec F S128x8192 .bf16) :
    out2_A_2 c i arg2 harg2 arg3 harg3 arg4 harg4 x0 x1
      = k2_pay1 (View.ld x0 (Rect.unit (s := S8192x128) (k2_off1 i) S1024x128.size (k2_off1_inb i)))
          (View.ld x1 (Rect.unit (s := S128x8192) (k2_off2 i) S128x1024.size (k2_off2_inb i))) := by
  unfold out2_A_2
  rw [View.read_writes_eq_canon _ _ _ (cover2_A_2 c i arg2 harg2 arg3 harg3 arg4 harg4 x0 x1)]
  unfold kernelRun2_A
  dsimp only
  rw [View.canon_unit_zero hz]
  simp only [View.readAt_eq_ld, harg2.read_unread, harg3.read_unread]

variable (V : (c : Dev nD) → (b : Ref sig .tc) → Buf (Elt Ideal) ((c : Thread nD τ).loc b))

/-- The distances as an [8192, 8192] array, from the contents the region finds in the two tables. -/
def dists (c : Dev nD) : S8192x8192.Idx → Elt Ideal .f32 :=
  fun i => clampedGram (P := 8192) (Q := 8192) (fun p r => V c main_v0 (ix2 p r)) (fun r q => V c main_v1 (ix2 r q)) (i 0) (i 1)

/-- One block's payload at an entry, when the loaded slices are the tables read at the matching row and column. -/
theorem block_eq (A : S8192x128.Idx → Elt Ideal .bf16) (B : S128x8192.Idx → Elt Ideal .bf16)
    (u : FVec Ideal S1024x128 .bf16) (w : FVec Ideal S128x1024 .bf16) (j : S1024x1024.Idx) (i : S8192x8192.Idx)
    (hu : ∀ r : Fin 128, u (ix2 (j 0) r) = A (ix2 (i 0) r))
    (hw : ∀ r : Fin 128, w (ix2 r (j 1)) = B (ix2 r (i 1))) :
    k2_pay1 (F := Ideal) u w j
      = clampedGram (P := 8192) (Q := 8192) (fun p r => A (ix2 p r)) (fun r q => B (ix2 r q)) (i 0) (i 1) := by
  refine ((congrArg (k2_pay1 (F := Ideal) u w) (eq_ix2 j)).trans (pay2_apply u w (j 0) (j 1))).trans ?_
  unfold clampedGram
  simp only [hu, hw]

/-- The printed offsets and index maps over the 64 points: the row offset of the first slice is 1024 times the
    output block's row index, the column offset of the second 1024 times its column index; the two tables' windows
    do not move. -/
theorem idx_facts : ∀ t : Fin cfg2.N, k2_off1 (grid2.coords t) (0 : Fin 2) = win2_2.index t (0 : Fin 2) * 1024
    ∧ k2_off1 (grid2.coords t) (1 : Fin 2) = 0
    ∧ k2_off2 (grid2.coords t) (0 : Fin 2) = 0
    ∧ k2_off2 (grid2.coords t) (1 : Fin 2) = win2_2.index t (1 : Fin 2) * 1024
    ∧ win2_0.index t (0 : Fin 2) = 0 ∧ win2_0.index t (1 : Fin 2) = 0
    ∧ win2_1.index t (0 : Fin 2) = 0 ∧ win2_1.index t (1 : Fin 2) = 0
    ∧ win2_2.index t (0 : Fin 2) ≤ 7 ∧ win2_2.index t (1 : Fin 2) ≤ 7 :=
  (by decide +kernel : ∀ t : Fin grid2.N, _)

/-- Every block of the output is some point's. -/
theorem idx_onto : ∀ (q0 q1 : Fin 8), ∃ t : Fin cfg2.N, win2_2.index t = ![q0.val, q1.val] :=
  (by decide +kernel : ∀ (q0 q1 : Fin 8), ∃ t : Fin grid2.N, win2_2.index t = ![q0.val, q1.val])

/-- What point `t` writes back is block `t` of the distances. -/
theorem flushed_eq (c : Dev nD) (t : Fin cfg2.N) :
    (dat2 V c).flushed 2 t = ((cfg2.win 2).blk t).view.read (Elt Ideal) (dists V c) := by
  show (cfg2.win 2).cut (grid2.coords t) ((dat2 V c).after 2 t) = _
  rw [after2_2]
  unfold outsAt2
  rw [out2_eq]
  obtain ⟨e0, e1, e2, e3, e4, e5, e6, e7, e8, e9⟩ := idx_facts t
  funext j
  show k2_pay1 (F := Ideal)
      (View.ld (iblk2 V c 0 t) (Rect.unit (s := S8192x128) (k2_off1 (grid2.coords t)) S1024x128.size (k2_off1_inb (grid2.coords t))))
      (View.ld (iblk2 V c 1 t) (Rect.unit (s := S128x8192) (k2_off2 (grid2.coords t)) S128x1024.size (k2_off2_inb (grid2.coords t)))) j
    = clampedGram (P := 8192) (Q := 8192) (fun p r => V c main_v0 (ix2 p r)) (fun r q => V c main_v1 (ix2 r q))
        ((((cfg2.win 2).blk t).view.emb j) 0) ((((cfg2.win 2).blk t).view.emb j) 1)
  refine block_eq (V c main_v0) (V c main_v1)
    (View.ld (iblk2 V c 0 t) (Rect.unit (s := S8192x128) (k2_off1 (grid2.coords t)) S1024x128.size (k2_off1_inb (grid2.coords t))))
    (View.ld (iblk2 V c 1 t) (Rect.unit (s := S128x8192) (k2_off2 (grid2.coords t)) S128x1024.size (k2_off2_inb (grid2.coords t))))
    j (((cfg2.win 2).blk t).view.emb j) (fun r => ?_) (fun r => ?_)
  · show V c main_v0 (((cfg2.win 0).blk t).view.emb
        ((Rect.unit (s := S8192x128) (k2_off1 (grid2.coords t)) S1024x128.size (k2_off1_inb (grid2.coords t))).emb (ix2 (j 0) r)))
      = V c main_v0 (ix2 ((((cfg2.win 2).blk t).view.emb j) 0) r)
    refine congrArg (V c main_v0) (funext fun a => Fin.ext ?_)
    match a with
    | ⟨0, _⟩ =>
      show win2_0.index t (0 : Fin 2) * 8192 + 1 * (k2_off1 (grid2.coords t) (0 : Fin 2) + 1 * (j 0).val)
        = win2_2.index t (0 : Fin 2) * 1024 + 1 * (j 0).val
      omega
    | ⟨1, _⟩ =>
      show win2_0.index t (1 : Fin 2) * 128 + 1 * (k2_off1 (grid2.coords t) (1 : Fin 2) + 1 * r.val) = r.val
      omega
  · show V c main_v1 (((cfg2.win 1).blk t).view.emb
        ((Rect.unit (s := S128x8192) (k2_off2 (grid2.coords t)) S128x1024.size (k2_off2_inb (grid2.coords t))).emb (ix2 r (j 1))))
      = V c main_v1 (ix2 r ((((cfg2.win 2).blk t).view.emb j) 1))
    refine congrArg (V c main_v1) (funext fun a => Fin.ext ?_)
    match a with
    | ⟨0, _⟩ =>
      show win2_1.index t (0 : Fin 2) * 128 + 1 * (k2_off2 (grid2.coords t) (0 : Fin 2) + 1 * r.val) = r.val
      omega
    | ⟨1, _⟩ =>
      show win2_1.index t (1 : Fin 2) * 8192 + 1 * (k2_off2 (grid2.coords t) (1 : Fin 2) + 1 * (j 1).val)
        = win2_2.index t (1 : Fin 2) * 1024 + 1 * (j 1).val
      omega

/-- An index of the output is in point `t`'s block iff each coordinate is in the block's range on its axis. -/
theorem mem_blk (t : Fin cfg2.N) (i : S8192x8192.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v2).slice (win2_2.rect t)).set ↔ _
  rw [View.set_slice_whole, Rect.mem_set_unit]
  exact Iff.rfl

/-- The blocks tile the output: entry (P, Q) lies in the block of the point with indices (P / 1024, Q / 1024). -/
theorem cover (i : S8192x8192.Idx) : ∃ t : Fin cfg2.N, (cfg2.win 2).flush t = true ∧ i ∈ ((cfg2.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win2_2.index t (0 : Fin 2) = (i 0).val / 1024 := congrFun ht 0
  have q1 : win2_2.index t (1 : Fin 2) = (i 1).val / 1024 := congrFun ht 1
  refine ⟨t, flush2_2 t, ?_⟩
  rw [mem_blk]
  intro a
  match a with
  | ⟨0, _⟩ =>
    show win2_2.index t (0 : Fin 2) * 1024 ≤ (i 0).val ∧ (i 0).val < win2_2.index t (0 : Fin 2) * 1024 + 1024
    omega
  | ⟨1, _⟩ =>
    show win2_2.index t (1 : Fin 2) * 1024 ≤ (i 1).val ∧ (i 1).val < win2_2.index t (1 : Fin 2) * 1024 + 1024
    omega

/-- After the region its output array holds the distances. -/
theorem final (c : Dev nD) : (dat2 V c).arrAt 2 cfg2.N = dists V c :=
  (dat2 V c).arrAt_eq_of_cover 2 (dists V c) (fun t _ => flushed_eq V c t) cover

end Cert.KernelIdeal.Region2

end
-- ==== Proof.KernelValue.lean ====
/-
  The idealized kernel's result is the specification's.

  The three regions run one after the other. The third finds, in its first table, what the first region left in its
  output (the second region does not touch that buffer) and, in its second table, what the second region left; the
  first region read `x` and `L` as launched, and the second read `y` and `L` as launched, since no region writes
  an argument. So the tables are the projected rows of `x` and the projected columns of `y`, and the result is the
  clamped Gram expansion of the two: the specification's function of the three arguments.
-/
import proofs.«125883_j3058016715342_2_alg».proof.Proof.KernelRun
import proofs.«125883_j3058016715342_2_alg».proof.Proof.Region0
import proofs.«125883_j3058016715342_2_alg».proof.Proof.Region1
import proofs.«125883_j3058016715342_2_alg».proof.Proof.Region2

set_option maxRecDepth 16384

noncomputable section

namespace Cert.KernelIdeal.KernelValue

open Cert.KernelIdeal Cert.KernelIdeal.Gen Cert.DistSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The second region finds `y` as launched: the first region's windows do not cover it. -/
theorem y_at_region1 (c : Dev nD) : V1 m ρ c main_arg1 = m ((c : Thread nD τ).loc main_arg1) :=
  W1_of_ne m ρ c main_arg1 (by decide)

/-- The second region finds `L` as launched: the first region stages it as an input and never writes it back. -/
theorem L_at_region1 (c : Dev nD) : V1 m ρ c main_arg2 = m ((c : Thread nD τ).loc main_arg2) :=
  (W1_arr m ρ c 1).trans (((dat0 (V0 m ρ) c).arrAt_in 1 rfl _).trans (A_eq0 (V0 m ρ) c 1))

/-- The third region's first table is what the first region left: the projected rows of `x`. -/
theorem rows_at_region2 (c : Dev nD) : V2 m ρ c main_v0 = Region0.rows (V0 m ρ) c :=
  ((W2_of_ne m ρ c main_v0 (by decide)).trans (W1_arr m ρ c 2)).trans (Region0.final (V0 m ρ) c)

/-- Its second table is what the second region left: the projected columns of `y`. -/
theorem cols_at_region2 (c : Dev nD) : V2 m ρ c main_v1 = Region1.cols (V1 m ρ) c :=
  (W2_arr m ρ c 2).trans (Region1.final (V1 m ρ) c)

/-- The result array after the run is the specification's function of the launched arguments. -/
theorem final_eq (c : Dev nD) :
    (dat2 (V2 m ρ) c).arrAt 2 cfg2.N
      = result (m ((c : Thread nD τ).loc main_arg0)) (m ((c : Thread nD τ).loc main_arg1)) (m ((c : Thread nD τ).loc main_arg2)) := by
  rw [Region2.final]
  unfold Region2.dists
  rw [rows_at_region2, cols_at_region2]
  unfold Region0.rows Region1.cols
  rw [y_at_region1, L_at_region1]
  rfl

/-- Every weakly fair execution of the idealized kernel terminates with the result at the specification's function
    of the arguments, and the arguments unchanged. -/
theorem run : θ_run defs (onTc (τ := τ) (main (F := Ideal))) ⟨m, fun _ => 0, ρ⟩ (fun r => ∀ c : Dev nD,
      r.2.mem ((c.tc : Thread nD τ).loc main_v2)
        = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (final_eq m ρ c), (h c).2⟩) (RunValue.run_arr m ρ)

end Cert.KernelIdeal.KernelValue

end
-- ==== Proof.RefValue.lean ====
/-
  The reference computes the specification.

  The reference projects the rows of `x` and of `y` on the rows of `L` (a product with the transposed `L`), sums
  the squares of each projected row from zero, multiplies the projected `x` with the transposed projected `y`,
  and combines: norms added by broadcasting one down the rows and the other along the columns, twice the product
  subtracted, the maximum with zero taken. Read at (p, q) every step is the specification's: the transposes only
  rename the index at which `L` and the projected `y` are read, and a sum started from zero is the sum.
-/
import proofs.«125883_j3058016715342_2_alg».proof.Proof.Gen.ReferenceIdeal.Read
import proofs.«125883_j3058016715342_2_alg».proof.Proof.Spec

noncomputable section

open scoped BigOperators

namespace Cert.ReferenceIdeal.RefValue

open Cert.ReferenceIdeal Cert.ReferenceIdeal.Read Idealize.ShloMosaic Idealize.ShloMosaic.ValueIdx Cert.DistSpec

variable (x0 x1 : (⟨S8192x1024, .f32⟩ : BufTy).Contents (Elt Ideal)) (x2 : (⟨S128x1024, .f32⟩ : BufTy).Contents (Elt Ideal))

/-- The projected `x`: entry (p, r) is row `p` of `x` against row `r` of `L` (column `r` of its transpose). -/
theorem projX_apply (p : Fin 8192) (r : Fin 128) : val_main_v1 (F := Ideal) x0 x2 (ix2 p r) = projRow x0 x2 p r := by
  rw [val_main_v1_apply]
  refine Finset.sum_congr rfl fun k _ => ?_
  rw [val_main_v0_apply]
  have e1 : lidx_main_v1 (ix2 p r) k = ix2 p k :=
    funext fun a => Fin.ext (by match a with | ⟨0, _⟩ => rfl | ⟨1, _⟩ => rfl)
  have e2 : idx_main_v0 (ridx_main_v1 (ix2 p r) k) = ix2 r k :=
    funext fun a => Fin.ext (by match a with | ⟨0, _⟩ => rfl | ⟨1, _⟩ => rfl)
  rw [e1, e2]

/-- The projected `y` likewise. -/
theorem projY_apply (q : Fin 8192) (r : Fin 128) : val_main_v3 (F := Ideal) x1 x2 (ix2 q r) = projRow x1 x2 q r := by
  rw [val_main_v3_apply]
  refine Finset.sum_congr rfl fun k _ => ?_
  rw [val_main_v2_apply]
  have e1 : lidx_main_v3 (ix2 q r) k = ix2 q k :=
    funext fun a => Fin.ext (by match a with | ⟨0, _⟩ => rfl | ⟨1, _⟩ => rfl)
  have e2 : idx_main_v2 (ridx_main_v3 (ix2 q r) k) = ix2 r k :=
    funext fun a => Fin.ext (by match a with | ⟨0, _⟩ => rfl | ⟨1, _⟩ => rfl)
  rw [e1, e2]

/-- The squared norm of projected `x p`: the sum, from zero, of the squares over the 128 directions. -/
theorem normX_apply (p : Fin 8192) :
    val_main_v5 (F := Ideal) x0 x2 (ix1 p) = ∑ r : Fin 128, projRow x0 x2 p r * projRow x0 x2 p r := by
  rw [val_main_v5_apply, val_main_cst_apply, Ideal.ofBits_def, Ideal.ofBits_zero_f32, zero_add]
  refine Finset.sum_congr rfl fun r _ => ?_
  have e : idx_main_v5 (ix1 p) r = ix2 p r :=
    funext fun a => Fin.ext (by match a with | ⟨0, _⟩ => rfl | ⟨1, _⟩ => rfl)
  rw [val_main_v4_apply, e, projX_apply]
  rfl

/-- The squared norm of projected `y q`. -/
theorem normY_apply (q : Fin 8192) :
    val_main_v7 (F := Ideal) x1 x2 (ix1 q) = ∑ r : Fin 128, projRow x1 x2 q r * projRow x1 x2 q r := by
  rw [val_main_v7_apply, val_main_cst_0_apply, Ideal.ofBits_def, Ideal.ofBits_zero_f32, zero_add]
  refine Finset.sum_congr rfl fun r _ => ?_
  have e : idx_main_v7 (ix1 q) r = ix2 q r :=
    funext fun a => Fin.ext (by match a with | ⟨0, _⟩ => rfl | ⟨1, _⟩ => rfl)
  rw [val_main_v6_apply, e, projY_apply]
  rfl

/-- The cross term: projected `x p` against projected `y q`, the latter read through its transpose. -/
theorem cross_apply (p q : Fin 8192) :
    val_main_v9 (F := Ideal) x0 x1 x2 (ix2 p q) = ∑ r : Fin 128, projRow x0 x2 p r * projRow x1 x2 q r := by
  rw [val_main_v9_apply]
  refine Finset.sum_congr rfl fun r _ => ?_
  have e1 : lidx_main_v9 (ix2 p q) r = ix2 p r :=
    funext fun a => Fin.ext (by match a with | ⟨0, _⟩ => rfl | ⟨1, _⟩ => rfl)
  have e2 : idx_main_v8 (ridx_main_v9 (ix2 p q) r) = ix2 q r :=
    funext fun a => Fin.ext (by match a with | ⟨0, _⟩ => rfl | ⟨1, _⟩ => rfl)
  rw [val_main_v8_apply, e1, e2, projX_apply, projY_apply]

/-- The reference's result is the specification's, entry by entry. -/
theorem result_eq : val_main_v19 (F := Ideal) x0 x1 x2 = result x0 x1 x2 := by
  funext i
  obtain ⟨p, q, rfl⟩ : ∃ (p q : Fin 8192), i = ix2 p q := ⟨i 0, i 1, eq_ix2 i⟩
  have e12 : idx_main_v10 (idx_main_v12 (ix2 p q)) = ix1 p :=
    funext fun a => Fin.ext (by match a with | ⟨0, _⟩ => rfl)
  have e13 : idx_main_v11 (idx_main_v13 (ix2 p q)) = ix1 q :=
    funext fun a => Fin.ext (by match a with | ⟨0, _⟩ => rfl)
  rw [val_main_v19_apply, val_main_v17_apply, val_main_v14_apply, val_main_v16_apply, val_main_v12_apply,
    val_main_v10_apply, val_main_v13_apply, val_main_v11_apply, val_main_v15_apply, val_main_v18_apply,
    val_main_cst_1_apply, val_main_cst_2_apply, e12, e13, normX_apply, normY_apply, cross_apply, result_apply]
  rfl

end Cert.ReferenceIdeal.RefValue

end
-- ==== Proof.lean ====
/-
  Squared distances between projected points: the kernel against its reference.

  For 8192 points `x p` and 8192 points `y q` in 1024 dimensions and 128 directions `L r`, both programs compute,
  at (p, q), the squared distance between the projections of `x p` and `y q` on the directions, by the Gram
  expansion and clamped at zero: max ((‖a‖² + ‖b‖²) − 2 · a·b) 0 with a_r = Σ_k x[p,k] · L[r,k] and
  b_r = Σ_k y[q,k] · L[r,k]. The kernel does it in three pipelined regions — the projections of `x`, the projections
  of `y` computed already transposed (the direction as the left factor of each product), and the distances block by
  block over an 8 × 8 grid —; the reference in one pass over whole arrays, transposing `L` and the projected `y`.
  On the extended reals every sum on either side runs over the same index set in the same order, and the only
  difference is the order of the two factors in the products of the `y` projection: multiplication commutes, and
  no law that could fail at an infinity is used, so the precondition is never opened. The idealization rewrote
  nothing, so there is nothing to preserve.
-/
import proofs.«125883_j3058016715342_2_alg».proof.Defs
import proofs.«125883_j3058016715342_2_alg».proof.Proof.Gen.Kernel
import proofs.«125883_j3058016715342_2_alg».proof.Proof.Gen.Kernel.Frame
import proofs.«125883_j3058016715342_2_alg».proof.Proof.Gen.KernelIdeal
import proofs.«125883_j3058016715342_2_alg».proof.Proof.Gen.KernelIdeal.Frame
import proofs.«125883_j3058016715342_2_alg».proof.Proof.Gen.ReferenceIdeal
import proofs.«125883_j3058016715342_2_alg».proof.Proof.Gen.ReferenceIdeal.Run
import proofs.«125883_j3058016715342_2_alg».proof.Proof.Gen.ReferenceIdeal.Read
import proofs.«125883_j3058016715342_2_alg».proof.Proof.Gen.Pre_finite_inputs
import proofs.«125883_j3058016715342_2_alg».proof.Proof.KernelValue
import proofs.«125883_j3058016715342_2_alg».proof.Proof.RefValue

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result at the same function of the
    arguments: the kernel's three regions compose to it, and the reference's operations read at an index are it. -/
theorem algebraic : Cert.algebraic_KernelIdeal_ReferenceIdeal := by
  intro m ρ m' ρ' _ hagree
  refine ⟨fun c => Cert.DistSpec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v19_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
